-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x32 : Shape := ⟨2, ![1600000, 32]⟩
abbrev S1600000 : Shape := ⟨1, ![1600000]⟩
abbrev S1x16 : Shape := ⟨2, ![1, 16]⟩
abbrev S208x128 : Shape := ⟨2, ![208, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1x16 : S_.BroadcastsInDim S1x16 (![] : Fin 0 → Fin S1x16.rank)
  reducesTo_S1x16_S_d0_1 : S1x16.ReducesTo [0, 1] S_
  bcast_S_S208x128 : S_.BroadcastsInDim S208x128 (![] : Fin 0 → Fin S208x128.rank)
  reducesTo_S208x128_S_d0_1 : S208x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S208x128 1) : IVec S_ 1 :=
  let main_c_5 : IVec S_ 1 := constantI S_ 1 1#1
  let main_v17 : IVec S_ 1 := (fun x v => Host.reduce IntOp.andi x v reducesTo_S208x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S1600000x32 .f32) (main_arg2 : IVec S1600000 32) (main_arg3 : IVec S1600000 32) (main_arg4 : FVec F S1x16 .f32) (main_arg5 : FVec F S208x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1x16 .f32 := Host.absf main_arg4
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S208x128 .f32 := Host.absf main_arg5
  let main_cst_4 : FVec F S_ .f32 := constant S_ .f32 0x7F800000#32
  let main_v15 : FVec F S208x128 .f32 := broadcastInDim S208x128 ![] bcast_S_S208x128 main_cst_4
  let main_v16 : IVec S208x128 1 := cmpf .olt main_v14 main_v15
  fn_part1 (F := F) main_arg6 main_arg7 main_arg8 main_v13 main_v16
-- ==== Kernel.lean ====
abbrev S100000x128 : Shape := ⟨2, ![100000, 128]⟩
abbrev S1600000x32 : Shape := ⟨2, ![1600000, 32]⟩
abbrev S1600000 : Shape := ⟨1, ![1600000]⟩
abbrev S1x16 : Shape := ⟨2, ![1, 16]⟩
abbrev S208x128 : Shape := ⟨2, ![208, 128]⟩
abbrev S128 : Shape := ⟨1, ![128]⟩
abbrev S128x128 : Shape := ⟨2, ![128, 128]⟩
abbrev S_ : Shape := ⟨0, ![]⟩
abbrev S100000x32 : Shape := ⟨2, ![100000, 32]⟩
abbrev S1600000x1 : Shape := ⟨2, ![1600000, 1]⟩
abbrev S32x128 : Shape := ⟨2, ![32, 128]⟩
abbrev S16x128 : Shape := ⟨2, ![16, 128]⟩
abbrev S1x128 : Shape := ⟨2, ![1, 128]⟩
abbrev S5000x128 : Shape := ⟨2, ![5000, 128]⟩
abbrev S5000x32 : Shape := ⟨2, ![5000, 32]⟩
abbrev S5000x16 : Shape := ⟨2, ![5000, 16]⟩

abbrev nBuf : Space → Nat
  | .hbm => 33
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S1x16, .f32⟩
  | .hbm, ⟨5, _⟩ => ⟨S208x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S100000x32, .f32⟩
  | .hbm, ⟨11, _⟩ => ⟨S1600000x1, .i32⟩
  | .hbm, ⟨12, _⟩ => ⟨S100000x32, .f32⟩
  | .hbm, ⟨13, _⟩ => ⟨S_, .f32⟩
  | .hbm, ⟨14, _⟩ => ⟨S100000x32, .f32⟩
  | .hbm, ⟨15, _⟩ => ⟨S1600000x1, .i32⟩
  | .hbm, ⟨16, _⟩ => ⟨S100000x32, .f32⟩
  | .hbm, ⟨17, _⟩ => ⟨S128x128, .f32⟩
  | .hbm, ⟨18, _⟩ => ⟨S32x128, .f32⟩
  | .hbm, ⟨19, _⟩ => ⟨S32x128, .f32⟩
  | .hbm, ⟨20, _⟩ => ⟨S16x128, .f32⟩
  | .hbm, ⟨21, _⟩ => ⟨S100000x128, .bf16⟩
  | .hbm, ⟨22, _⟩ => ⟨S100000x32, .bf16⟩
  | .hbm, ⟨23, _⟩ => ⟨S100000x32, .bf16⟩
  | .hbm, ⟨24, _⟩ => ⟨S1x16, .bf16⟩
  | .hbm, ⟨25, _⟩ => ⟨S128x128, .bf16⟩
  | .hbm, ⟨26, _⟩ => ⟨S32x128, .bf16⟩
  | .hbm, ⟨27, _⟩ => ⟨S32x128, .bf16⟩
  | .hbm, ⟨28, _⟩ => ⟨S16x128, .bf16⟩
  | .hbm, ⟨29, _⟩ => ⟨S128x128, .bf16⟩
  | .hbm, ⟨30, _⟩ => ⟨S1x128, .f32⟩
  | .hbm, ⟨31, _⟩ => ⟨S1x128, .f32⟩
  | .hbm, ⟨32, _⟩ => ⟨S100000x128, .f32⟩
  | .local _ .vmem, ⟨0, _⟩ => ⟨S5000x128, .bf16⟩
  | .local _ .vmem, ⟨1, _⟩ => ⟨S5000x128, .bf16⟩
  | .local _ .vmem, ⟨2, _⟩ => ⟨S5000x32, .bf16⟩
  | .local _ .vmem, ⟨3, _⟩ => ⟨S5000x32, .bf16⟩
  | .local _ .vmem, ⟨4, _⟩ => ⟨S5000x32, .bf16⟩
  | .local _ .vmem, ⟨5, _⟩ => ⟨S5000x32, .bf16⟩
  | .local _ .vmem, ⟨6, _⟩ => ⟨S1x16, .bf16⟩
  | .local _ .vmem, ⟨7, _⟩ => ⟨S128x128, .bf16⟩
  | .local _ .vmem, ⟨8, _⟩ => ⟨S32x128, .bf16⟩
  | .local _ .vmem, ⟨9, _⟩ => ⟨S32x128, .bf16⟩
  | .local _ .vmem, ⟨10, _⟩ => ⟨S16x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  slices_S208x128_S128x128_0_0 : S208x128.Slices ![0, 0] S128x128
  slices_S208x128_S32x128_128_0 : S208x128.Slices ![128, 0] S32x128
  slices_S208x128_S32x128_160_0 : S208x128.Slices ![160, 0] S32x128
  slices_S208x128_S16x128_192_0 : S208x128.Slices ![192, 0] S16x128
  bitsLt_bf16_f32 : FTy.bits .bf16 < FTy.bits .f32
  shapeCasts_S128_S1x128 : S128.ShapeCasts S1x128
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000x32_S1600000x1_S1600000x32_1_0_0_1_wf : ScatterDims.WF S100000x32 S1600000x1 S1600000x32 [1] [0] [0] 1
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  dot_S5000x16_S16x128_S5000x128_1_0_0_1_n_n_wf : DotDims.WF S5000x16 S16x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .bf16 = 32 ∨ (Rect.block (s := S100000x32) S5000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .bf16 = 32 ∨ (Rect.block (s := S100000x32) S5000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .bf16 = 32 ∨ (Rect.block (s := S1x16) S1x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .bf16 = 32 ∨ (Rect.block (s := S32x128) S32x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x128.size a
  hwx0_7 : ∀ i : grid0.Coords, EltTy.bits .bf16 = 32 ∨ (Rect.block (s := S16x128) S16x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S16x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x32 : Shape := ⟨2, ![1600000, 32]⟩
abbrev S1600000 : Shape := ⟨1, ![1600000]⟩
abbrev S1x16 : Shape := ⟨2, ![1, 16]⟩
abbrev S208x128 : Shape := ⟨2, ![208, 128]⟩
abbrev S128 : Shape := ⟨1, ![128]⟩
abbrev S128x128 : Shape := ⟨2, ![128, 128]⟩
abbrev S_ : Shape := ⟨0, ![]⟩
abbrev S100000x32 : Shape := ⟨2, ![100000, 32]⟩
abbrev S1600000x1 : Shape := ⟨2, ![1600000, 1]⟩
abbrev S16 : Shape := ⟨1, ![16]⟩
abbrev S100000x16 : Shape := ⟨2, ![100000, 16]⟩
abbrev S100000x208 : Shape := ⟨2, ![100000, 208]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S1x16, .f32⟩
  | .hbm, ⟨5, _⟩ => ⟨S208x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S100000x32, .f32⟩
  | .hbm, ⟨11, _⟩ => ⟨S1600000x1, .i32⟩
  | .hbm, ⟨12, _⟩ => ⟨S100000x32, .f32⟩
  | .hbm, ⟨13, _⟩ => ⟨S_, .f32⟩
  | .hbm, ⟨14, _⟩ => ⟨S100000x32, .f32⟩
  | .hbm, ⟨15, _⟩ => ⟨S1600000x1, .i32⟩
  | .hbm, ⟨16, _⟩ => ⟨S100000x32, .f32⟩
  | .hbm, ⟨17, _⟩ => ⟨S16, .f32⟩
  | .hbm, ⟨18, _⟩ => ⟨S100000x16, .f32⟩
  | .hbm, ⟨19, _⟩ => ⟨S100000x208, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  shapeCasts_S1x16_S16 : S1x16.ShapeCasts S16
  bcast_S16_S100000x16_1 : S16.BroadcastsInDim S100000x16 (![1] : Fin 1 → Fin S100000x16.rank)
  concatenates_S100000x128_S100000x32_S100000x32_S100000x16_S100000x208_d1 : Shape.Concatenates [S100000x128, S100000x32, S100000x32, S100000x16] S100000x208 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  scatter_S100000x32_S1600000x1_S1600000x32_1_0_0_1_wf : ScatterDims.WF S100000x32 S1600000x1 S1600000x32 [1] [0] [0] 1
  dot_S100000x208_S208x128_S100000x128_1_0_0_1_n_n_wf : DotDims.WF S100000x208 S208x128 S100000x128 [1] [0] [0] [1] [] []
  dot_S100000x128_S128x128_S100000x128_1_0_0_1_n_n_wf : DotDims.WF S100000x128 S128x128 S100000x128 [1] [0] [0] [1] [] []

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x208_S208x128_S100000x128_1_0_0_1_n_n : DotDims S100000x208 S208x128 S100000x128 where
  lhsContracting := [1]
  rhsContracting := [0]
  lhsNonContracting := [0]
  rhsNonContracting := [1]
  lhsBatch := []
  rhsBatch := []
  wf := dot_S100000x208_S208x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibAffineRow.lean ====
/-
  A general fact about a dense layer whose bias is already a one-row matrix, at the ideal values.

  A kernel's matrix product with the plain dimension numbers (rows by columns, one contracted axis, no batch axis)
  accumulated into the zero splat, plus a bias kept as a [1, n] row (cast to its own shape, as a block load leaves it) and
  broadcast down the rows, read at entry (r, c), is the inner product of row r of the left factor with column c of the
  right one plus the bias's entry c; and the same number as one function `affine A B b` of the output index, so that a
  tiled kernel's output array can be stated as that one function of its three input arrays.
-/
import Idealize.ShloMosaic.Lib.ValueIdx
import Idealize.ShloMosaic.Lib.ValueLayout
import Idealize.ShloMosaic.Lib.Pipeline.Value
import Idealize.ShloMosaic.PureOps.Ideal.Laws
import proofs.«116742_j4681514352874_1_alg».proof.Proof.LibMatmulPlain

noncomputable section

open scoped BigOperators

namespace Cert.LibAffineRow

open Idealize.ShloMosaic Idealize.ShloMosaic.ValueIdx

/-- A matrix product with the plain dimension numbers into the zero splat, plus a one-row bias (cast to its own shape)
    broadcast down the rows, at entry (r, c): the inner product of row r with column c, plus the bias's entry c. -/
theorem affine_row_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix2 (0 : Fin 1) c) := by
  subst hdd
  rw [addf_apply, Cert.LibMatmulPlain.matmul_plain_zero_apply, broadcastTo_1b_ab_apply, shapeCast_self]

/-- The affine map of a matrix A [m, k], weights B [k, n] and a one-row bias b [1, n], as one function of the output index. -/
def affine {m k n : Nat} (A : (⟨2, ![m, k]⟩ : Shape).Idx → EReal) (B : (⟨2, ![k, n]⟩ : Shape).Idx → EReal)
    (b : (⟨2, ![1, n]⟩ : Shape).Idx → EReal) : (⟨2, ![m, n]⟩ : Shape).Idx → EReal :=
  fun i => (∑ κ : Fin k, A (ix2 (⟨(i 0).val, idx2_lt0 i⟩ : Fin m) κ) * B (ix2 κ (⟨(i 1).val, idx2_lt1 i⟩ : Fin n)))
    + b (ix2 (0 : Fin 1) (⟨(i 1).val, idx2_lt1 i⟩ : Fin n))

/-- At the index with coordinates (r, q) it is the inner product of row r with column q, plus the bias's entry q. -/
theorem affine_ix2 {m k n : Nat} (A : (⟨2, ![m, k]⟩ : Shape).Idx → EReal) (B : (⟨2, ![k, n]⟩ : Shape).Idx → EReal)
    (b : (⟨2, ![1, n]⟩ : Shape).Idx → EReal) (r : Fin m) (q : Fin n) :
    affine A B b (ix2 r q) = (∑ κ : Fin k, A (ix2 r κ) * B (ix2 κ q)) + b (ix2 (0 : Fin 1) q) := rfl

end Cert.LibAffineRow

end
-- ==== Proof.Spec.lean ====
/-
  The node update of a graph network layer as one function of its arrays, entry by entry, on the extended reals.

  Each node r has its own feature row X r (128 numbers), the sum S r of the features of the edges it sends and the sum
  R r of those it receives (32 numbers each), and every node shares the graph's global row g (16 numbers).  The first
  dense layer multiplies the joined row (X r | S r | R r | g) by a 208-row weight matrix; written with the matrix cut
  into its four row bands Wn, Ws, Wr, Wg this is the sum of four inner products, plus the bias, and the positive part of
  that is the hidden row.  The second dense layer is the hidden row times W2 plus its bias.

  Two facts are proved here.  A sum over 208 consecutive positions is the sum over its first 128, the next 32, the next
  32 and the last 16 (only associativity of addition, so it holds in any commutative monoid, infinities included).  And
  the update at a row depends only on that row of X, S, R: two families of arrays that agree on a pair of rows give
  the same update there, which is how a row tile of a large array is compared with the array itself.
-/
import Idealize.ShloMosaic.Lib.ValueIdx
import Idealize.ShloMosaic.PureOps.Ideal

noncomputable section

open scoped BigOperators

namespace Cert.NodeUpdate

open Idealize.ShloMosaic Idealize.ShloMosaic.ValueIdx

/-- The hidden activation of node `r` at unit `j`: the four inner products of the node's own features, its sent and
    received edge sums and the global row with the matching bands of the first weight matrix, plus the bias, cut off
    below at the zero word's value. -/
def hiddenAct {n : Nat} (X : (⟨2, ![n, 128]⟩ : Shape).Idx → EReal) (S R : (⟨2, ![n, 32]⟩ : Shape).Idx → EReal)
    (g : (⟨2, ![1, 16]⟩ : Shape).Idx → EReal) (Wn : (⟨2, ![128, 128]⟩ : Shape).Idx → EReal)
    (Ws Wr : (⟨2, ![32, 128]⟩ : Shape).Idx → EReal) (Wg : (⟨2, ![16, 128]⟩ : Shape).Idx → EReal)
    (b1 : (⟨2, ![1, 128]⟩ : Shape).Idx → EReal) (r : Fin n) (j : Fin 128) : EReal :=
  max (((((∑ q : Fin 128, X (ix2 r q) * Wn (ix2 q j)) + ∑ q : Fin 32, S (ix2 r q) * Ws (ix2 q j))
      + ∑ q : Fin 32, R (ix2 r q) * Wr (ix2 q j)) + ∑ q : Fin 16, g (ix2 (0 : Fin 1) q) * Wg (ix2 q j))
      + b1 (ix2 (0 : Fin 1) j)) (Ideal.ofBits .f32 0x00000000#32)

/-- The updated feature of node `r` at output unit `c`: the hidden row times the second weight matrix, plus its bias. -/
def updated {n : Nat} (X : (⟨2, ![n, 128]⟩ : Shape).Idx → EReal) (S R : (⟨2, ![n, 32]⟩ : Shape).Idx → EReal)
    (g : (⟨2, ![1, 16]⟩ : Shape).Idx → EReal) (Wn : (⟨2, ![128, 128]⟩ : Shape).Idx → EReal)
    (Ws Wr : (⟨2, ![32, 128]⟩ : Shape).Idx → EReal) (Wg : (⟨2, ![16, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (r : Fin n) (c : Fin 128) : EReal :=
  (∑ j : Fin 128, hiddenAct X S R g Wn Ws Wr Wg b1 r j * W2 (ix2 j c)) + b2 (ix2 (0 : Fin 1) c)

/-- The whole updated array, as a function of the array index. -/
def updatedArr {n : Nat} (X : (⟨2, ![n, 128]⟩ : Shape).Idx → EReal) (S R : (⟨2, ![n, 32]⟩ : Shape).Idx → EReal)
    (g : (⟨2, ![1, 16]⟩ : Shape).Idx → EReal) (Wn : (⟨2, ![128, 128]⟩ : Shape).Idx → EReal)
    (Ws Wr : (⟨2, ![32, 128]⟩ : Shape).Idx → EReal) (Wg : (⟨2, ![16, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) : (⟨2, ![n, 128]⟩ : Shape).Idx → EReal :=
  fun i => updated X S R g Wn Ws Wr Wg b1 W2 b2 (⟨(i 0).val, idx2_lt0 i⟩ : Fin n) (⟨(i 1).val, idx2_lt1 i⟩ : Fin 128)

theorem updatedArr_ix2 {n : Nat} (X : (⟨2, ![n, 128]⟩ : Shape).Idx → EReal) (S R : (⟨2, ![n, 32]⟩ : Shape).Idx → EReal)
    (g : (⟨2, ![1, 16]⟩ : Shape).Idx → EReal) (Wn : (⟨2, ![128, 128]⟩ : Shape).Idx → EReal)
    (Ws Wr : (⟨2, ![32, 128]⟩ : Shape).Idx → EReal) (Wg : (⟨2, ![16, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (r : Fin n) (c : Fin 128) :
    updatedArr X S R g Wn Ws Wr Wg b1 W2 b2 (ix2 r c) = updated X S R g Wn Ws Wr Wg b1 W2 b2 r c := rfl

/-- The update at a row only reads that row of the three per-node arrays: if row `r` of one family is row `r'` of
    another (the shared arrays being the same), the two updates agree there. -/
theorem updated_congr_rows {n n' : Nat} (X : (⟨2, ![n, 128]⟩ : Shape).Idx → EReal) (S R : (⟨2, ![n, 32]⟩ : Shape).Idx → EReal)
    (X' : (⟨2, ![n', 128]⟩ : Shape).Idx → EReal) (S' R' : (⟨2, ![n', 32]⟩ : Shape).Idx → EReal)
    (g : (⟨2, ![1, 16]⟩ : Shape).Idx → EReal) (Wn : (⟨2, ![128, 128]⟩ : Shape).Idx → EReal)
    (Ws Wr : (⟨2, ![32, 128]⟩ : Shape).Idx → EReal) (Wg : (⟨2, ![16, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (r : Fin n) (r' : Fin n') (c : Fin 128)
    (hX : ∀ q, X (ix2 r q) = X' (ix2 r' q)) (hS : ∀ q, S (ix2 r q) = S' (ix2 r' q)) (hR : ∀ q, R (ix2 r q) = R' (ix2 r' q)) :
    updated X S R g Wn Ws Wr Wg b1 W2 b2 r c = updated X' S' R' g Wn Ws Wr Wg b1 W2 b2 r' c := by
  simp only [updated, hiddenAct, hX, hS, hR]

/-- The band of `len` consecutive rows of the first weight matrix starting at row `o`. -/
def band (o len : Nat) (h : o + len ≤ 208) (W : (⟨2, ![208, 128]⟩ : Shape).Idx → EReal) : (⟨2, ![len, 128]⟩ : Shape).Idx → EReal :=
  fun i => W (ix2 (⟨o + (i 0).val, by have := idx2_lt0 i; omega⟩ : Fin 208) (⟨(i 1).val, idx2_lt1 i⟩ : Fin 128))

theorem band_ix2 (o len : Nat) (h : o + len ≤ 208) (W : (⟨2, ![208, 128]⟩ : Shape).Idx → EReal) (q : Fin len) (j : Fin 128) :
    band o len h W (ix2 q j) = W (ix2 (⟨o + q.val, by have := q.isLt; omega⟩ : Fin 208) j) := rfl

/-- A bias vector laid out as a one-row matrix. -/
def row (b : (⟨1, ![128]⟩ : Shape).Idx → EReal) : (⟨2, ![1, 128]⟩ : Shape).Idx → EReal :=
  fun i => b (ix1 (⟨(i 1).val, idx2_lt1 i⟩ : Fin 128))

theorem row_ix2 (b : (⟨1, ![128]⟩ : Shape).Idx → EReal) (u : Fin 1) (j : Fin 128) : row b (ix2 u j) = b (ix1 j) := rfl

/-- The node update of the whole graph: 100000 nodes, the first weight matrix given whole (its four bands are the rows
    0–127, 128–159, 160–191, 192–207) and the two biases as vectors. -/
def nodeUpdate (X : (⟨2, ![100000, 128]⟩ : Shape).Idx → EReal) (S R : (⟨2, ![100000, 32]⟩ : Shape).Idx → EReal)
    (g : (⟨2, ![1, 16]⟩ : Shape).Idx → EReal) (W1 : (⟨2, ![208, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![100000, 128]⟩ : Shape).Idx → EReal :=
  updatedArr X S R g (band 0 128 (by decide) W1) (band 128 32 (by decide) W1) (band 160 32 (by decide) W1)
    (band 192 16 (by decide) W1) (row b1) W2 (row b2)

/-- A sum over `a + b + c + d` consecutive positions, band by band. -/
theorem sum_four_bands {M : Type*} [AddCommMonoid M] (a b c d : Nat) (f : Fin (a + b + c + d) → M) :
    ∑ k, f k = (((∑ q : Fin a, f (Fin.castAdd d (Fin.castAdd c (Fin.castAdd b q))))
        + ∑ q : Fin b, f (Fin.castAdd d (Fin.castAdd c (Fin.natAdd a q))))
        + ∑ q : Fin c, f (Fin.castAdd d (Fin.natAdd (a + b) q)))
        + ∑ q : Fin d, f (Fin.natAdd (a + b + c) q) := by
  rw [Fin.sum_univ_add, Fin.sum_univ_add, Fin.sum_univ_add]

/-- A sum over 208 consecutive positions is the sum over the first 128, the next 32, the next 32 and the last 16. -/
theorem sum_208 {M : Type*} [AddCommMonoid M] (f : Fin 208 → M) :
    ∑ k, f k = (((∑ q : Fin 128, f ⟨q.val, by have := q.isLt; omega⟩)
        + ∑ q : Fin 32, f ⟨128 + q.val, by have := q.isLt; omega⟩)
        + ∑ q : Fin 32, f ⟨160 + q.val, by have := q.isLt; omega⟩)
        + ∑ q : Fin 16, f ⟨192 + q.val, by have := q.isLt; omega⟩ :=
  sum_four_bands 128 32 32 16 f

end Cert.NodeUpdate

end
-- ==== Proof.KernelEntry.lean ====
/-
  The kernel body's stored value, entry by entry.

  On one row tile the body multiplies the tile of node features, the tiles of sent and received edge sums and the
  (row-repeated) global row by the four bands of the first weight matrix, each product accumulated from zero, adds the
  four products and the bias row, takes the positive part, multiplies by the second weight matrix from zero and adds
  its bias row.  A change of float format is the identity on the extended reals, a cast to the same shape does nothing,
  and a one-row array repeated down the rows reads its one row: so the stored value at (r, c) is the node update of
  the tile's row r at c.
-/
import proofs.«116742_j4681514352874_1_alg».proof.Proof.Gen.KernelIdeal.Skeleton
import proofs.«116742_j4681514352874_1_alg».proof.Proof.LibAffineRow
import proofs.«116742_j4681514352874_1_alg».proof.Proof.Spec
import Idealize.ShloMosaic.Lib.ValueLayout

noncomputable section

open scoped BigOperators

namespace Cert.KernelIdeal.Entry

open Cert.KernelIdeal Cert.KernelIdeal.Gen Idealize.ShloMosaic Idealize.ShloMosaic.ValueIdx Cert.NodeUpdate

theorem dot128 : dot_S5000x128_S128x128_S5000x128_1_0_0_1_n_n = DotDims.plain 5000 128 128 := rfl
theorem dot32 : dot_S5000x32_S32x128_S5000x128_1_0_0_1_n_n = DotDims.plain 5000 32 128 := rfl
theorem dot16 : dot_S5000x16_S16x128_S5000x128_1_0_0_1_n_n = DotDims.plain 5000 16 128 := rfl

/-- The hidden tile at (r, j): the positive part of the four inner products plus the bias. -/
theorem hidden_entry (g : FVec Ideal S1x16 .bf16) (X : FVec Ideal S5000x128 .bf16) (Wn : FVec Ideal S128x128 .bf16)
    (S : FVec Ideal S5000x32 .bf16) (Ws : FVec Ideal S32x128 .bf16) (R : FVec Ideal S5000x32 .bf16)
    (Wr : FVec Ideal S32x128 .bf16) (Wg : FVec Ideal S16x128 .bf16) (b1 : FVec Ideal S1x128 .f32)
    (r : Fin 5000) (j : Fin 128) :
    k0_pay2 (F := Ideal) g X Wn S Ws R Wr Wg b1 (ix2 r j) = hiddenAct (n := 5000) X S R g Wn Ws Wr Wg b1 r j := by
  unfold k0_pay2
  simp only [dot128, dot32, dot16]
  rw [truncf_apply, maximumf_apply, addf_apply, addf_apply, addf_apply, addf_apply,
    Cert.LibMatmulPlain.matmul_plain_zero_apply, Cert.LibMatmulPlain.matmul_plain_zero_apply,
    Cert.LibMatmulPlain.matmul_plain_zero_apply, Cert.LibMatmulPlain.matmul_plain_zero_apply,
    broadcastTo_1b_ab_apply, broadcast_apply]
  simp only [shapeCast_self, broadcastTo_1b_ab_apply]
  rfl

/-- The stored tile at (r, c): the node update of the tile's row r at c. -/
theorem stored_entry (g : FVec Ideal S1x16 .bf16) (X : FVec Ideal S5000x128 .bf16) (Wn : FVec Ideal S128x128 .bf16)
    (S : FVec Ideal S5000x32 .bf16) (Ws : FVec Ideal S32x128 .bf16) (R : FVec Ideal S5000x32 .bf16)
    (Wr : FVec Ideal S32x128 .bf16) (Wg : FVec Ideal S16x128 .bf16) (b1 : FVec Ideal S1x128 .f32)
    (W2 : FVec Ideal S128x128 .bf16) (b2 : FVec Ideal S1x128 .f32) (r : Fin 5000) (c : Fin 128) :
    k0_pay1 (F := Ideal) (k0_pay2 g X Wn S Ws R Wr Wg b1) (k0_pay3 W2) b2 (ix2 r c)
      = updated (n := 5000) X S R g Wn Ws Wr Wg b1 W2 b2 r c := by
  unfold k0_pay1 k0_pay3
  refine (Cert.LibAffineRow.affine_row_apply _ dot128 none _ _ b2 _ _ r c).trans ?_
  unfold updated
  simp only [shapeCast_self, hidden_entry]

end Cert.KernelIdeal.Entry

end
-- ==== Proof.KernelArrays.lean ====
/-
  The arrays the kernel's launch finds, as functions of the program's arguments.

  Before the launch the host program sums the edge features by sender and by receiver (two scatter-adds into zeros),
  cuts the first weight matrix into its four row bands, lays the two bias vectors out as one-row matrices and changes
  the float format of everything the matrix unit reads.  On the extended reals the format change is the identity, so
  each array the launch reads is: the node features; the two scatter-add results; the global row; rows 0–127,
  128–159, 160–191 and 192–207 of the first weight matrix; the first bias as a row; the second weight matrix; the second
  bias as a row.
-/
import proofs.«116742_j4681514352874_1_alg».proof.Proof.Gen.KernelIdeal.Frame
import proofs.«116742_j4681514352874_1_alg».proof.Proof.Spec
import Idealize.ShloMosaic.Lib.ValueLayout
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.NodeUpdate

variable (m : (ℓ : Loc nD τ sig) → Buf (Elt Ideal) ℓ)

/-- The edge features summed over each node's outgoing edges, as the host's scatter-add leaves them. -/
def sentSums (c : Dev nD) : S100000x32.Idx → EReal :=
  Host.scatterAdd (F := Ideal) scatter_S100000x32_S1600000x1_S1600000x32_1_0_0_1
    (broadcastInDim S100000x32 ![] Facts₀.bcast_S_S100000x32 (constant (F := Ideal) S_ .f32 0x00000000#32))
    (broadcastInDim S1600000x1 ![0] Facts₀.bcast_S1600000_S1600000x1_0 (m ((c : Thread nD τ).loc main_arg2)))
    (m ((c : Thread nD τ).loc main_arg1))

/-- The edge features summed over each node's incoming edges. -/
def recvSums (c : Dev nD) : S100000x32.Idx → EReal :=
  Host.scatterAdd (F := Ideal) scatter_S100000x32_S1600000x1_S1600000x32_1_0_0_1
    (broadcastInDim S100000x32 ![] Facts₀.bcast_S_S100000x32 (constant (F := Ideal) S_ .f32 0x00000000#32))
    (broadcastInDim S1600000x1 ![0] Facts₀.bcast_S1600000_S1600000x1_0 (m ((c : Thread nD τ).loc main_arg3)))
    (m ((c : Thread nD τ).loc main_arg1))

/-- On the extended reals a change of float format leaves every entry as it is. -/
theorem truncf_ideal {s : Shape} (x : FVec Ideal s .f32) (h : FTy.bits .bf16 < FTy.bits .f32) :
    (truncf (F := Ideal) (s := s) (φ := .f32) .bf16 x h) = x := rfl

theorem V_nodes (c : Dev nD) : @Eq (S100000x128.Idx → EReal) (V m c main_v10) (m ((c : Thread nD τ).loc main_arg0)) := by
  have e : @Eq (S100000x128.Idx → EReal) (V m c main_v10) (truncf (F := Ideal) (s := S100000x128) (φ := .f32) .bf16 (m ((c : Thread nD τ).loc main_arg0)) Facts₀.bitsLt_bf16_f32) := by
    dsimp only [Gen.V, Gen.hostOps0]; after_results <;> rfl
  exact e.trans (truncf_ideal _ _)

theorem V_sent (c : Dev nD) : @Eq (S100000x32.Idx → EReal) (V m c main_v11) (sentSums m c) := by
  have e : @Eq (S100000x32.Idx → EReal) (V m c main_v11) (truncf (F := Ideal) (s := S100000x32) (φ := .f32) .bf16 (sentSums m c) Facts₀.bitsLt_bf16_f32) := by
    dsimp only [Gen.V, Gen.hostOps0]; after_results <;> rfl
  exact e.trans (truncf_ideal _ _)

theorem V_recv (c : Dev nD) : @Eq (S100000x32.Idx → EReal) (V m c main_v12) (recvSums m c) := by
  have e : @Eq (S100000x32.Idx → EReal) (V m c main_v12) (truncf (F := Ideal) (s := S100000x32) (φ := .f32) .bf16 (recvSums m c) Facts₀.bitsLt_bf16_f32) := by
    dsimp only [Gen.V, Gen.hostOps0]; after_results <;> rfl
  exact e.trans (truncf_ideal _ _)

theorem V_global (c : Dev nD) : @Eq (S1x16.Idx → EReal) (V m c main_v13) (m ((c : Thread nD τ).loc main_arg4)) := by
  have e : @Eq (S1x16.Idx → EReal) (V m c main_v13) (truncf (F := Ideal) (s := S1x16) (φ := .f32) .bf16 (m ((c : Thread nD τ).loc main_arg4)) Facts₀.bitsLt_bf16_f32) := by
    dsimp only [Gen.V, Gen.hostOps0]; after_results <;> rfl
  exact e.trans (truncf_ideal _ _)

theorem V_W2 (c : Dev nD) : @Eq (S128x128.Idx → EReal) (V m c main_v18) (m ((c : Thread nD τ).loc main_arg7)) := by
  have e : @Eq (S128x128.Idx → EReal) (V m c main_v18) (truncf (F := Ideal) (s := S128x128) (φ := .f32) .bf16 (m ((c : Thread nD τ).loc main_arg7)) Facts₀.bitsLt_bf16_f32) := by
    dsimp only [Gen.V, Gen.hostOps0]; after_results <;> rfl
  exact e.trans (truncf_ideal _ _)

theorem V_band0 (c : Dev nD) : @Eq (S128x128.Idx → EReal) (V m c main_v14) (band 0 128 (by decide) (m ((c : Thread nD τ).loc main_arg5))) := by
  have e : @Eq (S128x128.Idx → EReal) (V m c main_v14) (truncf (F := Ideal) (s := S128x128) (φ := .f32) .bf16
      (extractStridedSlice S128x128 ![0, 0] (m ((c : Thread nD τ).loc main_arg5)) Facts₀.slices_S208x128_S128x128_0_0) Facts₀.bitsLt_bf16_f32) := by
    dsimp only [Gen.V, Gen.hostOps0]; after_results <;> rfl
  refine e.trans ((truncf_ideal _ _).trans ?_)
  funext i
  obtain ⟨q, j, rfl⟩ : ∃ (q : Fin 128) (j : Fin 128), i = ix2 q j := ⟨i 0, i 1, eq_ix2 i⟩
  rw [slice2_axis0_eq, band_ix2]

theorem V_band128 (c : Dev nD) : @Eq (S32x128.Idx → EReal) (V m c main_v15) (band 128 32 (by decide) (m ((c : Thread nD τ).loc main_arg5))) := by
  have e : @Eq (S32x128.Idx → EReal) (V m c main_v15) (truncf (F := Ideal) (s := S32x128) (φ := .f32) .bf16
      (extractStridedSlice S32x128 ![128, 0] (m ((c : Thread nD τ).loc main_arg5)) Facts₀.slices_S208x128_S32x128_128_0) Facts₀.bitsLt_bf16_f32) := by
    dsimp only [Gen.V, Gen.hostOps0]; after_results <;> rfl
  refine e.trans ((truncf_ideal _ _).trans ?_)
  funext i
  obtain ⟨q, j, rfl⟩ : ∃ (q : Fin 32) (j : Fin 128), i = ix2 q j := ⟨i 0, i 1, eq_ix2 i⟩
  rw [slice2_axis0_eq, band_ix2]

theorem V_band160 (c : Dev nD) : @Eq (S32x128.Idx → EReal) (V m c main_v16) (band 160 32 (by decide) (m ((c : Thread nD τ).loc main_arg5))) := by
  have e : @Eq (S32x128.Idx → EReal) (V m c main_v16) (truncf (F := Ideal) (s := S32x128) (φ := .f32) .bf16
      (extractStridedSlice S32x128 ![160, 0] (m ((c : Thread nD τ).loc main_arg5)) Facts₀.slices_S208x128_S32x128_160_0) Facts₀.bitsLt_bf16_f32) := by
    dsimp only [Gen.V, Gen.hostOps0]; after_results <;> rfl
  refine e.trans ((truncf_ideal _ _).trans ?_)
  funext i
  obtain ⟨q, j, rfl⟩ : ∃ (q : Fin 32) (j : Fin 128), i = ix2 q j := ⟨i 0, i 1, eq_ix2 i⟩
  rw [slice2_axis0_eq, band_ix2]

theorem V_band192 (c : Dev nD) : @Eq (S16x128.Idx → EReal) (V m c main_v17) (band 192 16 (by decide) (m ((c : Thread nD τ).loc main_arg5))) := by
  have e : @Eq (S16x128.Idx → EReal) (V m c main_v17) (truncf (F := Ideal) (s := S16x128) (φ := .f32) .bf16
      (extractStridedSlice S16x128 ![192, 0] (m ((c : Thread nD τ).loc main_arg5)) Facts₀.slices_S208x128_S16x128_192_0) Facts₀.bitsLt_bf16_f32) := by
    dsimp only [Gen.V, Gen.hostOps0]; after_results <;> rfl
  refine e.trans ((truncf_ideal _ _).trans ?_)
  funext i
  obtain ⟨q, j, rfl⟩ : ∃ (q : Fin 16) (j : Fin 128), i = ix2 q j := ⟨i 0, i 1, eq_ix2 i⟩
  rw [slice2_axis0_eq, band_ix2]

theorem V_bias1 (c : Dev nD) : @Eq (S1x128.Idx → EReal) (V m c main_v19) (row (m ((c : Thread nD τ).loc main_arg6))) := by
  have e : @Eq (S1x128.Idx → EReal) (V m c main_v19) (shapeCast S1x128 (m ((c : Thread nD τ).loc main_arg6)) Facts₀.shapeCasts_S128_S1x128) := by
    dsimp only [Gen.V, Gen.hostOps0]; after_results <;> rfl
  refine e.trans ?_
  funext i
  obtain ⟨u, j, rfl⟩ : ∃ (u : Fin 1) (j : Fin 128), i = ix2 u j := ⟨i 0, i 1, eq_ix2 i⟩
  rw [shapeCast_a_1a_apply, row_ix2]

theorem V_bias2 (c : Dev nD) : @Eq (S1x128.Idx → EReal) (V m c main_v20) (row (m ((c : Thread nD τ).loc main_arg8))) := by
  have e : @Eq (S1x128.Idx → EReal) (V m c main_v20) (shapeCast S1x128 (m ((c : Thread nD τ).loc main_arg8)) Facts₀.shapeCasts_S128_S1x128) := by
    dsimp only [Gen.V, Gen.hostOps0]; after_results <;> rfl
  refine e.trans ?_
  funext i
  obtain ⟨u, j, rfl⟩ : ∃ (u : Fin 1) (j : Fin 128), i = ix2 u j := ⟨i 0, i 1, eq_ix2 i⟩
  rw [shapeCast_a_1a_apply, row_ix2]

end Cert.KernelIdeal.Arrays

end
-- ==== Proof.KernelValue.lean ====
/-
  The kernel's result array as the node update of its arguments.

  The launch walks twenty row tiles of 5000 nodes.  At tile t the body reads rows 5000 t … 5000 t + 4999 of the node
  features and of the two edge sums, and the whole of every shared array, and stores the node update of those rows;
  the tile written back is rows 5000 t … 5000 t + 4999 of the result.  The update of a row reads only that row, so
  what tile t writes is exactly block t of the node update of the whole arrays; the twenty tiles cover all 100000 rows
  (row R lies in tile R / 5000), hence the result array is the node update everywhere.
-/
import proofs.«116742_j4681514352874_1_alg».proof.Proof.Gen.KernelIdeal.Value
import proofs.«116742_j4681514352874_1_alg».proof.Proof.KernelEntry
import proofs.«116742_j4681514352874_1_alg».proof.Proof.KernelArrays
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.NodeUpdate

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the three per-node inputs and the output step down the rows with the tile
    number; every shared array has the one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-! ## The input blocks at a tile, read off an array -/

/-- Row r of the node-feature block at tile t is row 5000 t + r of the array. -/
theorem read_rows0 (c : Dev nD) (A : Buf (Elt Ideal) ((c : Thread nD τ).loc (Pipeline.arrRef spec0 0))) (t : Fin cfg0.N) (r : Fin 5000) (q : Fin 128)
    (R : Fin 100000) (hR : R.val = t.val * 5000 + r.val) :
    (((cfg0.win 0).blk t).view.read (Elt Ideal) A : S5000x128.Idx → EReal) (ix2 r q) = (A : S100000x128.Idx → EReal) (ix2 R q) := by
  obtain ⟨⟨e0, e1⟩, -, -, -, -, -, -, -, -, -, -, -⟩ := idx_facts t
  rewrite [View.read_apply]
  show (A : S100000x128.Idx → EReal) (((cfg0.win 0).blk t).view.emb (ix2 r q)) = _
  refine congrArg (A : S100000x128.Idx → EReal) (funext fun a => Fin.ext ?_)
  match a with
  | ⟨0, _⟩ => show win0_0.index t (0 : Fin 2) * 5000 + 1 * r.val = R.val; rw [e0, hR]; omega
  | ⟨1, _⟩ => show win0_0.index t (1 : Fin 2) * 128 + 1 * q.val = q.val; rw [e1]; omega

/-- The same for the sums over outgoing edges. -/
theorem read_rows1 (c : Dev nD) (A : Buf (Elt Ideal) ((c : Thread nD τ).loc (Pipeline.arrRef spec0 1))) (t : Fin cfg0.N) (r : Fin 5000) (q : Fin 32)
    (R : Fin 100000) (hR : R.val = t.val * 5000 + r.val) :
    (((cfg0.win 1).blk t).view.read (Elt Ideal) A : S5000x32.Idx → EReal) (ix2 r q) = (A : S100000x32.Idx → EReal) (ix2 R q) := by
  obtain ⟨-, ⟨e0, e1⟩, -, -, -, -, -, -, -, -, -, -⟩ := idx_facts t
  rewrite [View.read_apply]
  show (A : S100000x32.Idx → EReal) (((cfg0.win 1).blk t).view.emb (ix2 r q)) = _
  refine congrArg (A : S100000x32.Idx → EReal) (funext fun a => Fin.ext ?_)
  match a with
  | ⟨0, _⟩ => show win0_1.index t (0 : Fin 2) * 5000 + 1 * r.val = R.val; rw [e0, hR]; omega
  | ⟨1, _⟩ => show win0_1.index t (1 : Fin 2) * 32 + 1 * q.val = q.val; rw [e1]; omega

/-- And for the sums over incoming edges. -/
theorem read_rows2 (c : Dev nD) (A : Buf (Elt Ideal) ((c : Thread nD τ).loc (Pipeline.arrRef spec0 2))) (t : Fin cfg0.N) (r : Fin 5000) (q : Fin 32)
    (R : Fin 100000) (hR : R.val = t.val * 5000 + r.val) :
    (((cfg0.win 2).blk t).view.read (Elt Ideal) A : S5000x32.Idx → EReal) (ix2 r q) = (A : S100000x32.Idx → EReal) (ix2 R q) := by
  obtain ⟨-, -, ⟨e0, e1⟩, -, -, -, -, -, -, -, -, -⟩ := idx_facts t
  rewrite [View.read_apply]
  show (A : S100000x32.Idx → EReal) (((cfg0.win 2).blk t).view.emb (ix2 r q)) = _
  refine congrArg (A : S100000x32.Idx → EReal) (funext fun a => Fin.ext ?_)
  match a with
  | ⟨0, _⟩ => show win0_2.index t (0 : Fin 2) * 5000 + 1 * r.val = R.val; rw [e0, hR]; omega
  | ⟨1, _⟩ => show win0_2.index t (1 : Fin 2) * 32 + 1 * q.val = q.val; rw [e1]; omega

/-- A shared array has one block, the array itself: the global row, -/
theorem read_whole3 (c : Dev nD) (A : Buf (Elt Ideal) ((c : Thread nD τ).loc (Pipeline.arrRef spec0 3))) (t : Fin cfg0.N) :
    (((cfg0.win 3).blk t).view.read (Elt Ideal) A : S1x16.Idx → EReal) = (A : S1x16.Idx → EReal) := by
  obtain ⟨-, -, -, ⟨e0, e1⟩, -, -, -, -, -, -, -, -⟩ := idx_facts t
  funext y
  rewrite [View.read_apply]
  show (A : S1x16.Idx → EReal) (((cfg0.win 3).blk t).view.emb y) = _
  refine congrArg (A : S1x16.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 16 + 1 * (y 1).val = (y 1).val; rw [e1]; omega

/-- rows 0–127 of the first weight matrix, -/
theorem read_whole4 (c : Dev nD) (A : Buf (Elt Ideal) ((c : Thread nD τ).loc (Pipeline.arrRef spec0 4))) (t : Fin cfg0.N) :
    (((cfg0.win 4).blk t).view.read (Elt Ideal) A : S128x128.Idx → EReal) = (A : S128x128.Idx → EReal) := by
  obtain ⟨-, -, -, -, ⟨e0, e1⟩, -, -, -, -, -, -, -⟩ := idx_facts t
  funext y
  rewrite [View.read_apply]
  show (A : S128x128.Idx → EReal) (((cfg0.win 4).blk t).view.emb y) = _
  refine congrArg (A : S128x128.Idx → EReal) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- rows 128–159, -/
theorem read_whole5 (c : Dev nD) (A : Buf (Elt Ideal) ((c : Thread nD τ).loc (Pipeline.arrRef spec0 5))) (t : Fin cfg0.N) :
    (((cfg0.win 5).blk t).view.read (Elt Ideal) A : S32x128.Idx → EReal) = (A : S32x128.Idx → EReal) := by
  obtain ⟨-, -, -, -, -, ⟨e0, e1⟩, -, -, -, -, -, -⟩ := idx_facts t
  funext y
  rewrite [View.read_apply]
  show (A : S32x128.Idx → EReal) (((cfg0.win 5).blk t).view.emb y) = _
  refine congrArg (A : S32x128.Idx → EReal) (funext fun a => Fin.ext ?_)
  match a with
  | ⟨0, _⟩ => show win0_5.index t (0 : Fin 2) * 32 + 1 * (y 0).val = (y 0).val; rw [e0]; omega
  | ⟨1, _⟩ => show win0_5.index t (1 : Fin 2) * 128 + 1 * (y 1).val = (y 1).val; rw [e1]; omega

/-- rows 160–191, -/
theorem read_whole6 (c : Dev nD) (A : Buf (Elt Ideal) ((c : Thread nD τ).loc (Pipeline.arrRef spec0 6))) (t : Fin cfg0.N) :
    (((cfg0.win 6).blk t).view.read (Elt Ideal) A : S32x128.Idx → EReal) = (A : S32x128.Idx → EReal) := by
  obtain ⟨-, -, -, -, -, -, ⟨e0, e1⟩, -, -, -, -, -⟩ := idx_facts t
  funext y
  rewrite [View.read_apply]
  show (A : S32x128.Idx → EReal) (((cfg0.win 6).blk t).view.emb y) = _
  refine congrArg (A : S32x128.Idx → EReal) (funext fun a => Fin.ext ?_)
  match a with
  | ⟨0, _⟩ => show win0_6.index t (0 : Fin 2) * 32 + 1 * (y 0).val = (y 0).val; rw [e0]; omega
  | ⟨1, _⟩ => show win0_6.index t (1 : Fin 2) * 128 + 1 * (y 1).val = (y 1).val; rw [e1]; omega

/-- rows 192–207, -/
theorem read_whole7 (c : Dev nD) (A : Buf (Elt Ideal) ((c : Thread nD τ).loc (Pipeline.arrRef spec0 7))) (t : Fin cfg0.N) :
    (((cfg0.win 7).blk t).view.read (Elt Ideal) A : S16x128.Idx → EReal) = (A : S16x128.Idx → EReal) := by
  obtain ⟨-, -, -, -, -, -, -, ⟨e0, e1⟩, -, -, -, -⟩ := idx_facts t
  funext y
  rewrite [View.read_apply]
  show (A : S16x128.Idx → EReal) (((cfg0.win 7).blk t).view.emb y) = _
  refine congrArg (A : S16x128.Idx → EReal) (funext fun a => Fin.ext ?_)
  match a with
  | ⟨0, _⟩ => show win0_7.index t (0 : Fin 2) * 16 + 1 * (y 0).val = (y 0).val; rw [e0]; omega
  | ⟨1, _⟩ => show win0_7.index t (1 : Fin 2) * 128 + 1 * (y 1).val = (y 1).val; rw [e1]; omega

/-- the first bias row, -/
theorem read_whole8 (c : Dev nD) (A : Buf (Elt Ideal) ((c : Thread nD τ).loc (Pipeline.arrRef spec0 8))) (t : Fin cfg0.N) :
    (((cfg0.win 8).blk t).view.read (Elt Ideal) A : S1x128.Idx → EReal) = (A : S1x128.Idx → EReal) := by
  obtain ⟨-, -, -, -, -, -, -, -, ⟨e0, e1⟩, -, -, -⟩ := idx_facts t
  funext y
  rewrite [View.read_apply]
  show (A : S1x128.Idx → EReal) (((cfg0.win 8).blk t).view.emb y) = _
  refine congrArg (A : S1x128.Idx → EReal) (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- the second weight matrix, -/
theorem read_whole9 (c : Dev nD) (A : Buf (Elt Ideal) ((c : Thread nD τ).loc (Pipeline.arrRef spec0 9))) (t : Fin cfg0.N) :
    (((cfg0.win 9).blk t).view.read (Elt Ideal) A : S128x128.Idx → EReal) = (A : S128x128.Idx → EReal) := by
  obtain ⟨-, -, -, -, -, -, -, -, -, ⟨e0, e1⟩, -, -⟩ := idx_facts t
  funext y
  rewrite [View.read_apply]
  show (A : S128x128.Idx → EReal) (((cfg0.win 9).blk t).view.emb y) = _
  refine congrArg (A : S128x128.Idx → EReal) (funext fun a => Fin.ext ?_)
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

/-- the second bias row. -/
theorem read_whole10 (c : Dev nD) (A : Buf (Elt Ideal) ((c : Thread nD τ).loc (Pipeline.arrRef spec0 10))) (t : Fin cfg0.N) :
    (((cfg0.win 10).blk t).view.read (Elt Ideal) A : S1x128.Idx → EReal) = (A : S1x128.Idx → EReal) := by
  obtain ⟨-, -, -, -, -, -, -, -, -, -, ⟨e0, e1⟩, -⟩ := idx_facts t
  funext y
  rewrite [View.read_apply]
  show (A : S1x128.Idx → EReal) (((cfg0.win 10).blk t).view.emb y) = _
  refine congrArg (A : S1x128.Idx → EReal) (funext fun a => Fin.ext ?_)
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-! ## What a tile writes back, for any contents of the arrays -/

set_option maxHeartbeats 2000000 in
/-- Whatever the eleven arrays hold, the body's result on their blocks at tile t, read through the output block, is
    block t of the node update of the arrays. -/
theorem flushed_gen (c : Dev nD) (t : Fin cfg0.N)
    (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4)))
    (A5 : Buf (Elt Ideal) ((c : Thread nD τ).loc (Pipeline.arrRef spec0 5)))
    (A6 : Buf (Elt Ideal) ((c : Thread nD τ).loc (Pipeline.arrRef spec0 6)))
    (A7 : Buf (Elt Ideal) ((c : Thread nD τ).loc (Pipeline.arrRef spec0 7)))
    (A8 : Buf (Elt Ideal) ((c : Thread nD τ).loc (Pipeline.arrRef spec0 8)))
    (A9 : Buf (Elt Ideal) ((c : Thread nD τ).loc (Pipeline.arrRef spec0 9)))
    (A10 : Buf (Elt Ideal) ((c : Thread nD τ).loc (Pipeline.arrRef spec0 10))) :
    (cfg0.win 11).cut (grid0.coords t) (out0_11 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10))
      = ((cfg0.win 11).blk t).view.read (Elt Ideal) (updatedArr (n := 100000) (A0 : S100000x128.Idx → EReal) (A1 : S100000x32.Idx → EReal) (A2 : S100000x32.Idx → EReal) (A3 : S1x16.Idx → EReal) (A4 : S128x128.Idx → EReal) (A5 : S32x128.Idx → EReal) (A6 : S32x128.Idx → EReal) (A7 : S16x128.Idx → EReal) (A8 : S1x128.Idx → EReal) (A9 : S128x128.Idx → EReal) (A10 : S1x128.Idx → EReal)) := by
  unfold out0_11
  rw [View.canon_unit_zero hz]
  simp only [View.ld_unit_zero (S := S1x16) hz, View.ld_unit_zero (S := S5000x128) hz, View.ld_unit_zero (S := S128x128) hz,
    View.ld_unit_zero (S := S5000x32) hz, View.ld_unit_zero (S := S32x128) hz, View.ld_unit_zero (S := S16x128) hz,
    View.ld_unit_zero (S := S1x128) hz]
  obtain ⟨-, -, -, -, -, -, -, -, -, -, -, ⟨e0, e1⟩⟩ := idx_facts t
  have hN : cfg0.N = 20 := N_0
  funext j
  obtain ⟨r, q, rfl⟩ : ∃ (r : Fin 5000) (q : Fin 128), j = ix2 r q := ⟨j 0, j 1, eq_ix2 j⟩
  have hR : t.val * 5000 + r.val < 100000 := by have := t.isLt; have := r.isLt; omega
  have hemb : ((cfg0.win 11).blk t).view.emb (ix2 r q) = ix2 (⟨t.val * 5000 + r.val, hR⟩ : Fin 100000) q := by
    funext a
    apply Fin.ext
    match a with
    | ⟨0, _⟩ => show win0_11.index t (0 : Fin 2) * 5000 + 1 * r.val = t.val * 5000 + r.val; rw [e0]; omega
    | ⟨1, _⟩ => show win0_11.index t (1 : Fin 2) * 128 + 1 * q.val = q.val; rw [e1]; omega
  show k0_pay1 (F := Ideal) (k0_pay2 (((cfg0.win 3).blk t).view.read (Elt Ideal) A3) (((cfg0.win 0).blk t).view.read (Elt Ideal) A0) (((cfg0.win 4).blk t).view.read (Elt Ideal) A4) (((cfg0.win 1).blk t).view.read (Elt Ideal) A1) (((cfg0.win 5).blk t).view.read (Elt Ideal) A5) (((cfg0.win 2).blk t).view.read (Elt Ideal) A2) (((cfg0.win 6).blk t).view.read (Elt Ideal) A6) (((cfg0.win 7).blk t).view.read (Elt Ideal) A7) (((cfg0.win 8).blk t).view.read (Elt Ideal) A8)) (k0_pay3 (((cfg0.win 9).blk t).view.read (Elt Ideal) A9)) (((cfg0.win 10).blk t).view.read (Elt Ideal) A10) (ix2 r q)
    = updatedArr (n := 100000) (A0 : S100000x128.Idx → EReal) (A1 : S100000x32.Idx → EReal) (A2 : S100000x32.Idx → EReal) (A3 : S1x16.Idx → EReal) (A4 : S128x128.Idx → EReal) (A5 : S32x128.Idx → EReal) (A6 : S32x128.Idx → EReal) (A7 : S16x128.Idx → EReal) (A8 : S1x128.Idx → EReal) (A9 : S128x128.Idx → EReal) (A10 : S1x128.Idx → EReal) (((cfg0.win 11).blk t).view.emb (ix2 r q))
  rw [hemb]
  refine (Entry.stored_entry (((cfg0.win 3).blk t).view.read (Elt Ideal) A3) (((cfg0.win 0).blk t).view.read (Elt Ideal) A0) (((cfg0.win 4).blk t).view.read (Elt Ideal) A4) (((cfg0.win 1).blk t).view.read (Elt Ideal) A1) (((cfg0.win 5).blk t).view.read (Elt Ideal) A5) (((cfg0.win 2).blk t).view.read (Elt Ideal) A2) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) r q).trans ?_
  rw [updatedArr_ix2, read_whole3 c A3 t, read_whole4 c A4 t, read_whole5 c A5 t, read_whole6 c A6 t, read_whole7 c A7 t,
    read_whole8 c A8 t, read_whole9 c A9 t, read_whole10 c A10 t]
  have hX : ∀ q' : Fin 128, (((cfg0.win 0).blk t).view.read (Elt Ideal) A0) (ix2 r q') = (A0 : S100000x128.Idx → EReal) (ix2 (⟨t.val * 5000 + r.val, hR⟩ : Fin 100000) q') :=
    fun q' => read_rows0 c A0 t r q' _ rfl
  have hS : ∀ q' : Fin 32, (((cfg0.win 1).blk t).view.read (Elt Ideal) A1) (ix2 r q') = (A1 : S100000x32.Idx → EReal) (ix2 (⟨t.val * 5000 + r.val, hR⟩ : Fin 100000) q') :=
    fun q' => read_rows1 c A1 t r q' _ rfl
  have hRv : ∀ q' : Fin 32, (((cfg0.win 2).blk t).view.read (Elt Ideal) A2) (ix2 r q') = (A2 : S100000x32.Idx → EReal) (ix2 (⟨t.val * 5000 + r.val, hR⟩ : Fin 100000) q') :=
    fun q' => read_rows2 c A2 t r q' _ rfl
  simp only [updated, hiddenAct, hX, hS, hRv]

/-! ## The arrays the launch finds, by window -/

/-- A fact about the contents found under one name of an array holds under any other name of the same array. -/
theorem V_rename (c : Dev nD) {b b' : Ref sig .tc} (h : b = b') {α : Type} (x : α) (hx : HEq (V m c b') x) : HEq (V m c b) x := by
  subst h; exact hx

theorem arr0 (c : Dev nD) : @Eq (S100000x128.Idx → EReal) (V m c (Pipeline.arrRef spec0 0)) (m ((c : Thread nD τ).loc main_arg0)) :=
  eq_of_heq (V_rename m c (b := Pipeline.arrRef spec0 0) (b' := main_v10) rfl _ (heq_of_eq (Arrays.V_nodes m c)))

theorem arr1 (c : Dev nD) : @Eq (S100000x32.Idx → EReal) (V m c (Pipeline.arrRef spec0 1)) (Arrays.sentSums m c) :=
  eq_of_heq (V_rename m c (b := Pipeline.arrRef spec0 1) (b' := main_v11) rfl _ (heq_of_eq (Arrays.V_sent m c)))

theorem arr2 (c : Dev nD) : @Eq (S100000x32.Idx → EReal) (V m c (Pipeline.arrRef spec0 2)) (Arrays.recvSums m c) :=
  eq_of_heq (V_rename m c (b := Pipeline.arrRef spec0 2) (b' := main_v12) rfl _ (heq_of_eq (Arrays.V_recv m c)))

theorem arr3 (c : Dev nD) : @Eq (S1x16.Idx → EReal) (V m c (Pipeline.arrRef spec0 3)) (m ((c : Thread nD τ).loc main_arg4)) :=
  eq_of_heq (V_rename m c (b := Pipeline.arrRef spec0 3) (b' := main_v13) rfl _ (heq_of_eq (Arrays.V_global m c)))

theorem arr4 (c : Dev nD) : @Eq (S128x128.Idx → EReal) (V m c (Pipeline.arrRef spec0 4)) (band 0 128 (by decide) (m ((c : Thread nD τ).loc main_arg5))) :=
  eq_of_heq (V_rename m c (b := Pipeline.arrRef spec0 4) (b' := main_v14) rfl _ (heq_of_eq (Arrays.V_band0 m c)))

theorem arr5 (c : Dev nD) : @Eq (S32x128.Idx → EReal) (V m c (Pipeline.arrRef spec0 5)) (band 128 32 (by decide) (m ((c : Thread nD τ).loc main_arg5))) :=
  eq_of_heq (V_rename m c (b := Pipeline.arrRef spec0 5) (b' := main_v15) rfl _ (heq_of_eq (Arrays.V_band128 m c)))

theorem arr6 (c : Dev nD) : @Eq (S32x128.Idx → EReal) (V m c (Pipeline.arrRef spec0 6)) (band 160 32 (by decide) (m ((c : Thread nD τ).loc main_arg5))) :=
  eq_of_heq (V_rename m c (b := Pipeline.arrRef spec0 6) (b' := main_v16) rfl _ (heq_of_eq (Arrays.V_band160 m c)))

theorem arr7 (c : Dev nD) : @Eq (S16x128.Idx → EReal) (V m c (Pipeline.arrRef spec0 7)) (band 192 16 (by decide) (m ((c : Thread nD τ).loc main_arg5))) :=
  eq_of_heq (V_rename m c (b := Pipeline.arrRef spec0 7) (b' := main_v17) rfl _ (heq_of_eq (Arrays.V_band192 m c)))

theorem arr8 (c : Dev nD) : @Eq (S1x128.Idx → EReal) (V m c (Pipeline.arrRef spec0 8)) (row (m ((c : Thread nD τ).loc main_arg6))) :=
  eq_of_heq (V_rename m c (b := Pipeline.arrRef spec0 8) (b' := main_v19) rfl _ (heq_of_eq (Arrays.V_bias1 m c)))

theorem arr9 (c : Dev nD) : @Eq (S128x128.Idx → EReal) (V m c (Pipeline.arrRef spec0 9)) (m ((c : Thread nD τ).loc main_arg7)) :=
  eq_of_heq (V_rename m c (b := Pipeline.arrRef spec0 9) (b' := main_v18) rfl _ (heq_of_eq (Arrays.V_W2 m c)))

theorem arr10 (c : Dev nD) : @Eq (S1x128.Idx → EReal) (V m c (Pipeline.arrRef spec0 10)) (row (m ((c : Thread nD τ).loc main_arg8))) :=
  eq_of_heq (V_rename m c (b := Pipeline.arrRef spec0 10) (b' := main_v20) rfl _ (heq_of_eq (Arrays.V_bias2 m c)))

/-! ## The result array -/

/-- The node update of the arrays the launch finds. -/
def G (c : Dev nD) : S100000x128.Idx → EReal :=
  updatedArr (n := 100000) (V m c (Pipeline.arrRef spec0 0) : S100000x128.Idx → EReal)
    (V m c (Pipeline.arrRef spec0 1) : S100000x32.Idx → EReal)
    (V m c (Pipeline.arrRef spec0 2) : S100000x32.Idx → EReal)
    (V m c (Pipeline.arrRef spec0 3) : S1x16.Idx → EReal)
    (V m c (Pipeline.arrRef spec0 4) : S128x128.Idx → EReal)
    (V m c (Pipeline.arrRef spec0 5) : S32x128.Idx → EReal)
    (V m c (Pipeline.arrRef spec0 6) : S32x128.Idx → EReal)
    (V m c (Pipeline.arrRef spec0 7) : S16x128.Idx → EReal)
    (V m c (Pipeline.arrRef spec0 8) : S1x128.Idx → EReal)
    (V m c (Pipeline.arrRef spec0 9) : S128x128.Idx → EReal)
    (V m c (Pipeline.arrRef spec0 10) : S1x128.Idx → EReal)

/-- What tile t writes back is block t of it. -/
theorem flushed_eq (c : Dev nD) (t : Fin cfg0.N) :
    (dats m 0 c).flushed 11 t = ((cfg0.win 11).blk t).view.read (Elt Ideal) (G m c) :=
  (Value.flushed11 m c t).trans (flushed_gen c t (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)))

/-- Every row of the result lies in some tile. -/
theorem cover (i : S100000x128.Idx) : ∃ t : Fin cfg0.N, (cfg0.win 11).flush t = true ∧ i ∈ ((cfg0.win 11).blk t).view.set := by
  have hN : cfg0.N = 20 := N_0
  have hi0 : (i 0).val < 100000 := (i 0).isLt
  have hi1 : (i 1).val < 128 := (i 1).isLt
  have ht : (i 0).val / 5000 < cfg0.N := by rw [hN]; omega
  obtain ⟨-, -, -, -, -, -, -, -, -, -, -, ⟨e0, e1⟩⟩ := idx_facts ⟨(i 0).val / 5000, ht⟩
  refine ⟨⟨(i 0).val / 5000, ht⟩, flush0_11 _, ?_⟩
  show i ∈ ((View.whole main_v21).slice (win0_11.rect ⟨(i 0).val / 5000, ht⟩)).set
  rw [View.set_slice_whole, Rect.mem_set_unit]
  intro a
  match a with
  | ⟨0, _⟩ =>
    show win0_11.index ⟨(i 0).val / 5000, ht⟩ (0 : Fin 2) * 5000 ≤ (i 0).val ∧ (i 0).val < win0_11.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_11.index ⟨(i 0).val / 5000, ht⟩ (1 : Fin 2) * 128 ≤ (i 1).val ∧ (i 1).val < win0_11.index ⟨(i 0).val / 5000, ht⟩ (1 : Fin 2) * 128 + 128
    rw [e1]; omega

/-- So the result array ends holding the node update of the arrays the launch finds. -/
theorem final (c : Dev nD) : (dats m 0 c).arrAt 11 cfg0.N = G m c :=
  (dats m 0 c).arrAt_eq_of_cover 11 (G m c) (fun t _ => flushed_eq m c t) (cover)

/-- With the eleven arrays named by what they hold, the node update of the arrays is the node update of the program's
    arguments. -/
theorem updatedArr_of_eq (X : (⟨2, ![100000, 128]⟩ : Shape).Idx → EReal) (S R : (⟨2, ![100000, 32]⟩ : Shape).Idx → EReal)
    (g : (⟨2, ![1, 16]⟩ : Shape).Idx → EReal) (W1 : (⟨2, ![208, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (A0 : (⟨2, ![100000, 128]⟩ : Shape).Idx → EReal) (A1 A2 : (⟨2, ![100000, 32]⟩ : Shape).Idx → EReal)
    (A3 : (⟨2, ![1, 16]⟩ : Shape).Idx → EReal) (A4 : (⟨2, ![128, 128]⟩ : Shape).Idx → EReal)
    (A5 A6 : (⟨2, ![32, 128]⟩ : Shape).Idx → EReal) (A7 : (⟨2, ![16, 128]⟩ : Shape).Idx → EReal)
    (A8 : (⟨2, ![1, 128]⟩ : Shape).Idx → EReal) (A9 : (⟨2, ![128, 128]⟩ : Shape).Idx → EReal) (A10 : (⟨2, ![1, 128]⟩ : Shape).Idx → EReal)
    (h0 : A0 = X) (h1 : A1 = S) (h2 : A2 = R) (h3 : A3 = g) (h4 : A4 = band 0 128 (by decide) W1) (h5 : A5 = band 128 32 (by decide) W1)
    (h6 : A6 = band 160 32 (by decide) W1) (h7 : A7 = band 192 16 (by decide) W1) (h8 : A8 = row b1) (h9 : A9 = W2) (h10 : A10 = row b2) :
    updatedArr (n := 100000) A0 A1 A2 A3 A4 A5 A6 A7 A8 A9 A10 = nodeUpdate X S R g W1 b1 W2 b2 := by
  subst h0 h1 h2 h3 h4 h5 h6 h7 h8 h9 h10
  rfl

/-- In the program's arguments: the node update of the node features, the two scatter-added edge sums, the global row,
    the two weight matrices and the two biases. -/
theorem G_eq (c : Dev nD) :
    G m c = nodeUpdate (m ((c : Thread nD τ).loc main_arg0)) (Arrays.sentSums m c) (Arrays.recvSums m c)
      (m ((c : Thread nD τ).loc main_arg4)) (m ((c : Thread nD τ).loc main_arg5)) (m ((c : Thread nD τ).loc main_arg6))
      (m ((c : Thread nD τ).loc main_arg7)) (m ((c : Thread nD τ).loc main_arg8)) :=
  updatedArr_of_eq _ _ _ _ _ _ _ _ _ _ _ _ _ _ _ _ _ _ _ (arr0 m c) (arr1 m c) (arr2 m c) (arr3 m c) (arr4 m c) (arr5 m c) (arr6 m c)
    (arr7 m c) (arr8 m c) (arr9 m c) (arr10 m c)

/-- The run, read: the result array at the node update of the arguments, the arguments unchanged. -/
theorem run : θ_run defs (onTc (τ := τ) (main (F := Ideal))) ⟨m, fun _ => 0, ρ⟩ fun r => ∀ c : Dev nD,
      r.2.mem ((c : Thread nD τ).loc main_v21) = nodeUpdate (m ((c : Thread nD τ).loc main_arg0)) (Arrays.sentSums m c) (Arrays.recvSums m c)
          (m ((c : Thread nD τ).loc main_arg4)) (m ((c : Thread nD τ).loc main_arg5)) (m ((c : Thread nD τ).loc main_arg6))
          (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (G_eq m c)), (h c).2⟩)
    (Value.run_blocks m ρ)

end Cert.KernelIdeal.Hand

end
-- ==== Proof.RefEntry.lean ====
/-
  The reference program's result, entry by entry.

  The reference joins, for every node, its own features, its sent and received edge sums and the global row into one
  row of 208 numbers, multiplies by the whole first weight matrix, adds the bias, takes the positive part, multiplies by
  the second weight matrix and adds its bias.  Reading the joined row band by band — positions 0–127 are the node's
  features, 128–159 the sent sums, 160–191 the received sums, 192–207 the global row — and splitting the inner product
  over 208 positions into the four bands' inner products shows that the result at (r, c) is the node update of row r at c.
  The two edge sums stay unopened: they are whatever the scatter-add produced.
-/
import proofs.«116742_j4681514352874_1_alg».proof.Proof.Gen.ReferenceIdeal.Read
import proofs.«116742_j4681514352874_1_alg».proof.Proof.Spec
import Idealize.ShloMosaic.Lib.ValueLayout

noncomputable section

open scoped BigOperators

namespace Cert.ReferenceIdeal.Entry

open Cert.ReferenceIdeal Cert.ReferenceIdeal.Read Idealize.ShloMosaic Idealize.ShloMosaic.ValueIdx Cert.NodeUpdate

variable (x0 : (⟨S100000x128, .f32⟩ : BufTy).Contents (Elt Ideal)) (x1 : (⟨S1600000x32, .f32⟩ : BufTy).Contents (Elt Ideal))
  (x2 x3 : (⟨S1600000, .i32⟩ : BufTy).Contents (Elt Ideal)) (x4 : (⟨S1x16, .f32⟩ : BufTy).Contents (Elt Ideal))
  (x5 : (⟨S208x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-- Positions 0–127 of a node's joined row are its own features. -/
theorem joined_own (r : Fin 100000) (q : Fin 128) (k : Fin 208) (hk : k.val = q.val) :
    val_main_v8 (F := Ideal) x0 x1 x2 x3 x4 (ix2 r k) = x0 (ix2 r q) := by
  unfold val_main_v8
  refine concatenate_apply_piece _ _ _ (ix2 r k) 0 (by show (0 : ℕ) < 4; decide) S100000x128 x0 rfl rfl 0 rfl (ix2 r q) (fun b hb => ?_) ?_
  · match b with
    | ⟨0, _⟩ => rfl
    | ⟨1, _⟩ => exact absurd rfl hb
  · show 0 + q.val = k.val
    omega

/-- Positions 128–159 are the sums over the edges it sends. -/
theorem joined_sent (r : Fin 100000) (q : Fin 32) (k : Fin 208) (hk : k.val = 128 + q.val) :
    val_main_v8 (F := Ideal) x0 x1 x2 x3 x4 (ix2 r k) = val_main_v2 (F := Ideal) x1 x2 (ix2 r q) := by
  unfold val_main_v8
  refine concatenate_apply_piece _ _ _ (ix2 r k) 1 (by show (1 : ℕ) < 4; decide) S100000x32 (val_main_v2 (F := Ideal) x1 x2) rfl rfl 128 rfl (ix2 r q) (fun b hb => ?_) ?_
  · match b with
    | ⟨0, _⟩ => rfl
    | ⟨1, _⟩ => exact absurd rfl hb
  · show 128 + q.val = k.val
    omega

/-- Positions 160–191 are the sums over the edges it receives. -/
theorem joined_recv (r : Fin 100000) (q : Fin 32) (k : Fin 208) (hk : k.val = 160 + q.val) :
    val_main_v8 (F := Ideal) x0 x1 x2 x3 x4 (ix2 r k) = val_main_v5 (F := Ideal) x1 x3 (ix2 r q) := by
  unfold val_main_v8
  refine concatenate_apply_piece _ _ _ (ix2 r k) 2 (by show (2 : ℕ) < 4; decide) S100000x32 (val_main_v5 (F := Ideal) x1 x3) rfl rfl 160 rfl (ix2 r q) (fun b hb => ?_) ?_
  · match b with
    | ⟨0, _⟩ => rfl
    | ⟨1, _⟩ => exact absurd rfl hb
  · show 160 + q.val = k.val
    omega

/-- Positions 192–207 are the graph's global row, the same for every node. -/
theorem joined_global (r : Fin 100000) (q : Fin 16) (k : Fin 208) (hk : k.val = 192 + q.val) :
    val_main_v8 (F := Ideal) x0 x1 x2 x3 x4 (ix2 r k) = x4 (ix2 (0 : Fin 1) q) := by
  unfold val_main_v8
  refine (concatenate_apply_piece _ _ _ (ix2 r k) 3 (by show (3 : ℕ) < 4; decide) S100000x16 (val_main_v7 (F := Ideal) x4) rfl rfl 192 rfl (ix2 r q) (fun b hb => ?_) ?_).trans ?_
  · match b with
    | ⟨0, _⟩ => rfl
    | ⟨1, _⟩ => exact absurd rfl hb
  · show 192 + q.val = k.val
    omega
  · rw [val_main_v7_apply, val_main_v6_apply]
    refine congrArg x4 (funext fun a => Fin.ext ?_)
    match a with
    | ⟨0, _⟩ => rfl
    | ⟨1, _⟩ => show q.val % 16 = q.val; have := q.isLt; omega

/-- The hidden activation the reference computes at (r, j). -/
theorem hidden_entry (r : Fin 100000) (j : Fin 128) :
    val_main_v13 (F := Ideal) x0 x1 x2 x3 x4 x5 x6 (ix2 r j)
      = hiddenAct (n := 100000) x0 (val_main_v2 (F := Ideal) x1 x2) (val_main_v5 (F := Ideal) x1 x3) x4
          (band 0 128 (by decide) x5) (band 128 32 (by decide) x5) (band 160 32 (by decide) x5) (band 192 16 (by decide) x5)
          (row x6) r j := by
  rw [val_main_v13_apply, val_main_v12_apply, val_main_v9_apply, val_main_v11_apply, val_main_v10_apply,
    val_main_call0_v0_apply, val_main_call0_cst_apply, sum_208]
  unfold hiddenAct
  have eo : ∀ q : Fin 128, val_main_v8 (F := Ideal) x0 x1 x2 x3 x4 (lidx_main_v9 (ix2 r j) ⟨q.val, by have := q.isLt; omega⟩)
      * x5 (ridx_main_v9 (ix2 r j) ⟨q.val, by have := q.isLt; omega⟩) = x0 (ix2 r q) * band 0 128 (by decide) x5 (ix2 q j) := fun q => by
    have e1 : lidx_main_v9 (ix2 r j) ⟨q.val, by have := q.isLt; omega⟩ = ix2 r (⟨q.val, by have := q.isLt; omega⟩ : Fin 208) :=
      funext fun a => Fin.ext (by match a with | ⟨0, _⟩ => rfl | ⟨1, _⟩ => rfl)
    rw [e1, joined_own x0 x1 x2 x3 x4 r q _ rfl, band_ix2]
    refine congrArg (fun z => x0 (ix2 r q) * x5 z) (funext fun a => Fin.ext ?_)
    match a with
    | ⟨0, _⟩ => exact (Nat.zero_add _).symm
    | ⟨1, _⟩ => rfl
  have es : ∀ q : Fin 32, val_main_v8 (F := Ideal) x0 x1 x2 x3 x4 (lidx_main_v9 (ix2 r j) ⟨128 + q.val, by have := q.isLt; omega⟩)
      * x5 (ridx_main_v9 (ix2 r j) ⟨128 + q.val, by have := q.isLt; omega⟩)
      = val_main_v2 (F := Ideal) x1 x2 (ix2 r q) * band 128 32 (by decide) x5 (ix2 q j) := fun q => by
    have e1 : lidx_main_v9 (ix2 r j) ⟨128 + q.val, by have := q.isLt; omega⟩ = ix2 r (⟨128 + q.val, by have := q.isLt; omega⟩ : Fin 208) :=
      funext fun a => Fin.ext (by match a with | ⟨0, _⟩ => rfl | ⟨1, _⟩ => rfl)
    rw [e1, joined_sent x0 x1 x2 x3 x4 r q _ rfl, band_ix2]
    refine congrArg (fun z => val_main_v2 (F := Ideal) x1 x2 (ix2 r q) * x5 z) (funext fun a => Fin.ext ?_)
    match a with
    | ⟨0, _⟩ => rfl
    | ⟨1, _⟩ => rfl
  have er : ∀ q : Fin 32, val_main_v8 (F := Ideal) x0 x1 x2 x3 x4 (lidx_main_v9 (ix2 r j) ⟨160 + q.val, by have := q.isLt; omega⟩)
      * x5 (ridx_main_v9 (ix2 r j) ⟨160 + q.val, by have := q.isLt; omega⟩)
      = val_main_v5 (F := Ideal) x1 x3 (ix2 r q) * band 160 32 (by decide) x5 (ix2 q j) := fun q => by
    have e1 : lidx_main_v9 (ix2 r j) ⟨160 + q.val, by have := q.isLt; omega⟩ = ix2 r (⟨160 + q.val, by have := q.isLt; omega⟩ : Fin 208) :=
      funext fun a => Fin.ext (by match a with | ⟨0, _⟩ => rfl | ⟨1, _⟩ => rfl)
    rw [e1, joined_recv x0 x1 x2 x3 x4 r q _ rfl, band_ix2]
    refine congrArg (fun z => val_main_v5 (F := Ideal) x1 x3 (ix2 r q) * x5 z) (funext fun a => Fin.ext ?_)
    match a with
    | ⟨0, _⟩ => rfl
    | ⟨1, _⟩ => rfl
  have eg : ∀ q : Fin 16, val_main_v8 (F := Ideal) x0 x1 x2 x3 x4 (lidx_main_v9 (ix2 r j) ⟨192 + q.val, by have := q.isLt; omega⟩)
      * x5 (ridx_main_v9 (ix2 r j) ⟨192 + q.val, by have := q.isLt; omega⟩)
      = x4 (ix2 (0 : Fin 1) q) * band 192 16 (by decide) x5 (ix2 q j) := fun q => by
    have e1 : lidx_main_v9 (ix2 r j) ⟨192 + q.val, by have := q.isLt; omega⟩ = ix2 r (⟨192 + q.val, by have := q.isLt; omega⟩ : Fin 208) :=
      funext fun a => Fin.ext (by match a with | ⟨0, _⟩ => rfl | ⟨1, _⟩ => rfl)
    rw [e1, joined_global x0 x1 x2 x3 x4 r q _ rfl, band_ix2]
    refine congrArg (fun z => x4 (ix2 (0 : Fin 1) q) * x5 z) (funext fun a => Fin.ext ?_)
    match a with
    | ⟨0, _⟩ => rfl
    | ⟨1, _⟩ => rfl
  have eb : x6 (idx_main_v10 (idx_main_v11 (ix2 r j))) = row x6 (ix2 (0 : Fin 1) j) := by
    rw [row_ix2]
    exact congrArg x6 (funext fun a => Fin.ext (by match a with | ⟨0, _⟩ => rfl))
  simp only [eo, es, er, eg, eb]
  rfl

/-- The reference's result at (r, c): the node update of row r at c. -/
theorem result_entry (r : Fin 100000) (c : Fin 128) :
    val_main_v17 (F := Ideal) x0 x1 x2 x3 x4 x5 x6 x7 x8 (ix2 r c)
      = nodeUpdate x0 (val_main_v2 (F := Ideal) x1 x2) (val_main_v5 (F := Ideal) x1 x3) x4 x5 x6 x7 x8 (ix2 r c) := by
  rw [val_main_v17_apply, val_main_v14_apply, val_main_v16_apply, val_main_v15_apply]
  unfold nodeUpdate
  rw [updatedArr_ix2]
  unfold updated
  have e1 : ∀ k : Fin 128, lidx_main_v14 (ix2 r c) k = ix2 r k := fun k =>
    funext fun a => Fin.ext (by match a with | ⟨0, _⟩ => rfl | ⟨1, _⟩ => rfl)
  have e2 : ∀ k : Fin 128, ridx_main_v14 (ix2 r c) k = ix2 k c := fun k =>
    funext fun a => Fin.ext (by match a with | ⟨0, _⟩ => rfl | ⟨1, _⟩ => rfl)
  have eb : x8 (idx_main_v15 (idx_main_v16 (ix2 r c))) = row x8 (ix2 (0 : Fin 1) c) := by
    rw [row_ix2]
    exact congrArg x8 (funext fun a => Fin.ext (by match a with | ⟨0, _⟩ => rfl))
  simp only [e1, e2, eb, hidden_entry]
  rfl

/-- So the reference's result array is the node update. -/
theorem result_eq :
    val_main_v17 (F := Ideal) x0 x1 x2 x3 x4 x5 x6 x7 x8
      = nodeUpdate x0 (val_main_v2 (F := Ideal) x1 x2) (val_main_v5 (F := Ideal) x1 x3) x4 x5 x6 x7 x8 := by
  funext i
  obtain ⟨r, c, rfl⟩ : ∃ (r : Fin 100000) (c : Fin 128), i = ix2 r c := ⟨i 0, i 1, eq_ix2 i⟩
  exact result_entry x0 x1 x2 x3 x4 x5 x6 x7 x8 r c

end Cert.ReferenceIdeal.Entry

end
-- ==== Proof.lean ====
/-
  A graph-network node update computed two ways gives the same array on the extended reals.

  Both programs first sum the edge features by sender and by receiver with the same scatter-add of the same arguments.
  The kernel then walks the nodes in twenty tiles of 5000 rows; on a tile it multiplies the node features, the sent
  sums, the received sums and the global row by the four row bands of the first weight matrix, adds the four products
  and the bias, takes the positive part, multiplies by the second weight matrix and adds its bias.  The reference joins
  the four pieces into rows of 208 numbers and multiplies once by the whole first weight matrix.

  An inner product over 208 positions is the sum of the inner products over positions 0–127, 128–159, 160–191 and
  192–207: this is associativity of addition alone, which holds on the extended reals with the infinities included, so
  no finiteness of the inputs is used.  A change of float format is the identity there.  Entry by entry both results
  are the same function `nodeUpdate` of the node features, the two edge sums, the global row, the weights and the biases.

  The three frame claims are the generated frame proofs of the two kernel programs and the reference's generated run;
  the idealization rewrote nothing, so there is nothing to preserve.
-/
import proofs.«116742_j4681514352874_1_alg».proof.Defs
import proofs.«116742_j4681514352874_1_alg».proof.Proof.Gen.Kernel
import proofs.«116742_j4681514352874_1_alg».proof.Proof.Gen.Kernel.Skeleton
import proofs.«116742_j4681514352874_1_alg».proof.Proof.Gen.Kernel.Launch
import proofs.«116742_j4681514352874_1_alg».proof.Proof.Gen.Kernel.Points
import proofs.«116742_j4681514352874_1_alg».proof.Proof.Gen.Kernel.Frame
import proofs.«116742_j4681514352874_1_alg».proof.Proof.Gen.KernelIdeal
import proofs.«116742_j4681514352874_1_alg».proof.Proof.Gen.KernelIdeal.Skeleton
import proofs.«116742_j4681514352874_1_alg».proof.Proof.Gen.KernelIdeal.Launch
import proofs.«116742_j4681514352874_1_alg».proof.Proof.Gen.KernelIdeal.Points
import proofs.«116742_j4681514352874_1_alg».proof.Proof.Gen.KernelIdeal.Frame
import proofs.«116742_j4681514352874_1_alg».proof.Proof.Gen.ReferenceIdeal
import proofs.«116742_j4681514352874_1_alg».proof.Proof.Gen.KernelIdeal.Value
import proofs.«116742_j4681514352874_1_alg».proof.Proof.Gen.ReferenceIdeal.Run
import proofs.«116742_j4681514352874_1_alg».proof.Proof.Gen.ReferenceIdeal.Read
import proofs.«116742_j4681514352874_1_alg».proof.Proof.Gen.Pre_finite_inputs
import proofs.«116742_j4681514352874_1_alg».proof.Proof.KernelValue
import proofs.«116742_j4681514352874_1_alg».proof.Proof.RefEntry
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The sums over outgoing edges are one function of the edge features and the sender numbers in both programs: the
    same scatter-add into the same zeros. -/
theorem sent_same (m : (ℓ : Loc Cert.KernelIdeal.nD Cert.KernelIdeal.τ Cert.KernelIdeal.sig) → Buf (Elt Ideal) ℓ)
    (c : Dev Cert.KernelIdeal.nD) :
    Cert.ReferenceIdeal.Read.val_main_v2 (F := Ideal)
        (m ((c : Thread Cert.KernelIdeal.nD Cert.KernelIdeal.τ).loc Cert.KernelIdeal.main_arg1))
        (m ((c : Thread Cert.KernelIdeal.nD Cert.KernelIdeal.τ).loc Cert.KernelIdeal.main_arg2))
      = Cert.KernelIdeal.Arrays.sentSums m c := rfl

/-- And so are the sums over incoming edges. -/
theorem recv_same (m : (ℓ : Loc Cert.KernelIdeal.nD Cert.KernelIdeal.τ Cert.KernelIdeal.sig) → Buf (Elt Ideal) ℓ)
    (c : Dev Cert.KernelIdeal.nD) :
    Cert.ReferenceIdeal.Read.val_main_v5 (F := Ideal)
        (m ((c : Thread Cert.KernelIdeal.nD Cert.KernelIdeal.τ).loc Cert.KernelIdeal.main_arg1))
        (m ((c : Thread Cert.KernelIdeal.nD Cert.KernelIdeal.τ).loc Cert.KernelIdeal.main_arg3))
      = Cert.KernelIdeal.Arrays.recvSums m c := rfl

/-- From memories that agree on the arguments the kernel's result array (the tiles' node updates, assembled) and the
    reference's (the joined rows through the two dense layers) are the same node update. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v17_eq, Cert.ReferenceIdeal.Entry.result_eq, h0, h1, h2, h3, h4, h5, h6, h7, h8,
    sent_same m c, recv_same m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
